-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S100000x128 .f32) (main_arg1 : FVec F S128x128 .f32) (main_arg2 : FVec F S128x128 .f32) (main_arg3 : IVec S1600000 32) (main_arg4 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S100000x128 : Shape := ⟨2, ![100000, 128]⟩
abbrev S128x128 : Shape := ⟨2, ![128, 128]⟩
abbrev S1600000 : Shape := ⟨1, ![1600000]⟩
abbrev S128x256 : Shape := ⟨2, ![128, 256]⟩
abbrev S100000x256 : Shape := ⟨2, ![100000, 256]⟩
abbrev S5000x128 : Shape := ⟨2, ![5000, 128]⟩
abbrev S5000x256 : Shape := ⟨2, ![5000, 256]⟩
abbrev S_ : Shape := ⟨0, ![]⟩
abbrev S1600000x1 : Shape := ⟨2, ![1600000, 1]⟩
abbrev S1600000x128 : Shape := ⟨2, ![1600000, 128]⟩

abbrev nBuf : Space → Nat
  | .hbm => 26
  | .vmem => 5
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S1600000, .i32⟩
  | .hbm, ⟨4, _⟩ => ⟨S1600000, .i32⟩
  | .hbm, ⟨5, _⟩ => ⟨S128x256, .f32⟩
  | .hbm, ⟨6, _⟩ => ⟨S100000x256, .f32⟩
  | .hbm, ⟨7, _⟩ => ⟨S100000x128, .f32⟩
  | .hbm, ⟨8, _⟩ => ⟨S100000x128, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S100000x128, .f32⟩
  | .hbm, ⟨23, _⟩ => ⟨S_, .f32⟩
  | .hbm, ⟨24, _⟩ => ⟨S100000x128, .f32⟩
  | .hbm, ⟨25, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x256, .f32⟩
  | .local _ .vmem, ⟨4, _⟩ => ⟨S5000x256, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_cst : Ref sig .tc := ⟨.hbm, 23, rfl⟩
abbrev main_call0_v0 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  concatenates_S128x128_S128x128_S128x256_d1 : Shape.Concatenates [S128x128, S128x128] S128x256 1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S5000x256_S5000x256_0_0 : ∀ a, (![0, 0] : Fin 2 → Nat) a + S5000x256.size a ≤ S5000x256.size a
  h_S5000x256 : 0 < S5000x256.numel
  slices_S100000x256_S100000x128_0_0 : S100000x256.Slices ![0, 0] S100000x128
  slices_S100000x256_S100000x128_0_128 : S100000x256.Slices ![0, 128] S100000x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  dot_S5000x128_S128x256_S5000x256_1_0_0_1_n_n_wf : DotDims.WF S5000x128 S128x256 S5000x256 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S100000x256.size a
  hwx0_2 : ∀ i : grid0.Coords, EltTy.bits .f32 = 32 ∨ (Rect.block (s := S100000x256) S5000x256.size (cc0_transform_2 i) (hinb0_2 i)).WholeWords (EltTy.packing .f32)

variable [Facts₀]

def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩

abbrev nBuf : Space → Nat
  | .hbm => 24
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S1600000, .i32⟩
  | .hbm, ⟨4, _⟩ => ⟨S1600000, .i32⟩
  | .hbm, ⟨5, _⟩ => ⟨S100000x128, .f32⟩
  | .hbm, ⟨6, _⟩ => ⟨S100000x128, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S_, .f32⟩
  | .hbm, ⟨17, _⟩ => ⟨S100000x128, .f32⟩
  | .hbm, ⟨18, _⟩ => ⟨S1600000x1, .i32⟩
  | .hbm, ⟨19, _⟩ => ⟨S100000x128, .f32⟩
  | .hbm, ⟨20, _⟩ => ⟨S100000x128, .f32⟩
  | .hbm, ⟨21, _⟩ => ⟨S_, .f32⟩
  | .hbm, ⟨22, _⟩ => ⟨S100000x128, .f32⟩
  | .hbm, ⟨23, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_v13 : Ref sig .tc := ⟨.hbm, 23, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.MatmulBlock.lean ====
/-
  The fused product: one block read at an index, and the whole-array function the blocks are cut from.

  At a grid point the body loads a 5000 × 128 block `x` of the features and the whole 128 × 256 matrix `w`
  (the two weight matrices side by side), rounds both to bf16 — the identity on the extended reals — and
  multiplies them into a zero accumulator. So entry (p, q) of what it stores is the plain sum
  `∑ k, x (p, k) · w (k, q)` over the 128 contracted columns: no accumulator term, no rounding, no order.
-/
import proofs.«147174_j49357764165671_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.GraphConv

open Idealize.ShloMosaic Idealize.ShloMosaic.ValueIdx
open Cert.KernelIdeal Cert.KernelIdeal.Gen

/-- The product's dimension record: rows of the left operand, columns of the right, one contracted axis of 128. -/
abbrev blockDot : DotDims S5000x128 S128x256 S5000x256 := dot_S5000x128_S128x256_S5000x256_1_0_0_1_n_n

/-- Row coordinate of the left operand's index: the output's row. -/
theorem blockDot_lhs_row (i : S5000x256.Idx) (q : blockDot.contr.Idx) : (blockDot.lhsIdx i q 0).val = (i 0).val := by
  unfold DotDims.lhsIdx
  rw [dif_neg (show ¬(0 : Fin S5000x128.rank) ∈ blockDot.lhsBatch by decide),
    dif_pos (show (0 : Fin S5000x128.rank) ∈ blockDot.lhsNonContracting by decide)]
  rfl

/-- Column coordinate of the left operand's index: the contraction index. -/
theorem blockDot_lhs_col (i : S5000x256.Idx) (q : blockDot.contr.Idx) :
    (blockDot.lhsIdx i q 1).val = (q ⟨0, by decide⟩).val :=
  blockDot.lhsIdx_val_of_single rfl i q

/-- Row coordinate of the right operand's index: the contraction index. -/
theorem blockDot_rhs_row (i : S5000x256.Idx) (q : blockDot.contr.Idx) :
    (blockDot.rhsIdx i q 0).val = (q ⟨0, by decide⟩).val :=
  blockDot.rhsIdx_val_of_single rfl i q

/-- Column coordinate of the right operand's index: the output's column. -/
theorem blockDot_rhs_col (i : S5000x256.Idx) (q : blockDot.contr.Idx) : (blockDot.rhsIdx i q 1).val = (i 1).val := by
  unfold DotDims.rhsIdx
  rw [dif_neg (show ¬(1 : Fin S128x256.rank) ∈ blockDot.rhsBatch by decide),
    dif_pos (show (1 : Fin S128x256.rank) ∈ blockDot.rhsNonContracting by decide)]
  rfl

/-- Entry (p, q) of the stored block is the sum over the contracted axis of the loaded operands' products. -/
theorem stored_block_apply (x : Vec Ideal S5000x128 .f32) (w : Vec Ideal S128x256 .f32) (p : Fin 5000) (q : Fin 256) :
    k0_pay1 (F := Ideal) x w (ix2 p q) = ∑ k : Fin 128, x (ix2 p k) * w (ix2 k q) := by
  unfold k0_pay1
  refine (Ideal.matmul_constant_zero_apply blockDot none _ _ (ix2 p q)).trans ?_
  rw [← Equiv.sum_comp (contrEquiv1 blockDot 128 rfl rfl).symm]
  refine Finset.sum_congr rfl fun k _ => ?_
  have hk := contrEquiv1_symm_val blockDot 128 rfl rfl k
  have el : blockDot.lhsIdx (ix2 p q) ((contrEquiv1 blockDot 128 rfl rfl).symm k) = ix2 p k := funext fun a => Fin.ext (by
    match a with
    | ⟨0, _⟩ => exact blockDot_lhs_row _ _
    | ⟨1, _⟩ => exact (blockDot_lhs_col _ _).trans hk)
  have er : blockDot.rhsIdx (ix2 p q) ((contrEquiv1 blockDot 128 rfl rfl).symm k) = ix2 k q := funext fun a => Fin.ext (by
    match a with
    | ⟨0, _⟩ => exact (blockDot_rhs_row _ _).trans hk
    | ⟨1, _⟩ => exact blockDot_rhs_col _ _)
  rw [el, er, truncf_apply, truncf_apply, shapeCast_self]

/-- The matrix product of a 100000 × 128 array with a 128 × 256 array, entry by entry, on the extended reals:
    entry (r, q) is the sum over the 128 contracted columns of `f (r, k) · w (k, q)`. -/
def product (f : Vec Ideal S100000x128 .f32) (w : Vec Ideal S128x256 .f32) : Vec Ideal S100000x256 .f32 :=
  fun i => ∑ k : Fin 128, f (ix2 (⟨(i 0).val, idx2_lt0 i⟩ : Fin 100000) k) * w (ix2 k (⟨(i 1).val, idx2_lt1 i⟩ : Fin 256))

end Cert.GraphConv

end
-- ==== Proof.ProductArray.lean ====
/-
  From blocks to the whole product.

  The grid has 20 points. Point `t` stages rows `5000·t … 5000·t + 4999` of the features (all 128 columns), the
  whole 128 × 256 weight matrix, and writes back rows `5000·t … 5000·t + 4999` of the 100000 × 256 output (all 256
  columns). What it writes is the block's rows of ONE function of the two arrays the region starts from,
  `product f w (r, q) = ∑ k, f (r, k) · w (k, q)`; the 20 row blocks tile the output, so after the last point the
  output array is `product` of the features and of the weight matrix the host line before the region wrote:
  the two 128 × 128 weight matrices side by side.
-/
import proofs.«147174_j49357764165671_1_alg».proof.Proof.Gen.KernelIdeal.Frame
import proofs.«147174_j49357764165671_1_alg».proof.Proof.MatmulBlock
import Idealize.ShloMosaic.Lib.Pipeline.Value
import Idealize.ShloMosaic.Lib.StableHlo.Run

noncomputable section

namespace Cert.GraphConv

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen

variable (m : (ℓ : Loc nD τ sig) → Buf (Elt Ideal) ℓ)

theorem zero_offsets : (![0, 0] : Fin 2 → Nat) = fun _ => 0 := funext fun a => by fin_cases a <;> rfl

/-- The printed index maps over the grid: the features' and the output's row block is the point's number, every
    column block is block 0, and the weight matrix is always its one block. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, k) of the features' block at point `t` is the features array at row `5000·t + p`, column `k`. -/
theorem features_block (c : Dev nD) (t : Fin cfg0.N) (p : Fin 5000) (k : Fin 128) (i : S100000x128.Idx)
    (h0 : (i 0).val = t.val * 5000 + p.val) (h1 : (i 1).val = k.val) :
    (iblk m c 0 t : Vec Ideal S5000x128 .f32) (ix2 p k) = V m c main_arg0 i := by
  obtain ⟨e0, e1, -⟩ := block_indices t
  show V m c main_arg0 (((cfg0.win 0).blk t).view.emb (ix2 p k)) = V m c main_arg0 i
  refine congrArg (V m c main_arg0) ?_
  funext a; apply Fin.ext
  match a with
  | ⟨0, _⟩ => show win0_0.index t (0 : Fin 2) * 5000 + 1 * p.val = (i 0).val; omega
  | ⟨1, _⟩ => show win0_0.index t (1 : Fin 2) * 128 + 1 * k.val = (i 1).val; omega

/-- The weight matrix's block at any point is the whole matrix. -/
theorem weights_block (c : Dev nD) (t : Fin cfg0.N) (k : Fin 128) (q : Fin 256) (i : S128x256.Idx)
    (h0 : (i 0).val = k.val) (h1 : (i 1).val = q.val) :
    (iblk m c 1 t : Vec Ideal S128x256 .f32) (ix2 k q) = V m c main_v0 i := by
  obtain ⟨-, -, e2, e3, -⟩ := block_indices t
  show V m c main_v0 (((cfg0.win 1).blk t).view.emb (ix2 k q)) = V m c main_v0 i
  refine congrArg (V m c main_v0) ?_
  funext a; apply Fin.ext
  match a with
  | ⟨0, _⟩ => show win0_1.index t (0 : Fin 2) * 128 + 1 * k.val = (i 0).val; omega
  | ⟨1, _⟩ => show win0_1.index t (1 : Fin 2) * 256 + 1 * q.val = (i 1).val; omega

/-- What point `t` writes back is block `t` of the product of the arrays the region starts from. -/
theorem flushed_eq (c : Dev nD) (t : Fin cfg0.N) :
    (dats m 0 c).flushed 2 t = ((cfg0.win 2).blk t).view.read (Elt Ideal) (product (V m c main_arg0) (V m c main_v0)) := by
  show (cfg0.win 2).cut (grid0.coords t) ((dats m 0 c).after 2 t) = _
  rw [after0_2]
  unfold out0_2
  rw [View.canon_unit_zero zero_offsets]
  simp only [View.ld_unit_zero (S := S5000x128) zero_offsets, View.ld_unit_zero (S := S128x256) zero_offsets]
  obtain ⟨-, -, -, -, e4, e5⟩ := block_indices t
  funext j
  obtain ⟨p, q, rfl⟩ : ∃ (p : Fin 5000) (q : Fin 256), j = ix2 p q := ⟨j 0, j 1, eq_ix2 j⟩
  show k0_pay1 (iblk m c 0 t) (iblk m c 1 t) (ix2 p q)
    = product (V m c main_arg0) (V m c main_v0) (((cfg0.win 2).blk t).view.emb (ix2 p q))
  refine (stored_block_apply (iblk m c 0 t) (iblk m c 1 t) p q).trans ?_
  unfold product
  refine Finset.sum_congr rfl fun k _ => ?_
  refine congrArg₂ (· * ·) (features_block m c t p k _ ?_ rfl) (weights_block m c t k q _ rfl ?_)
  · show win0_2.index t (0 : Fin 2) * 5000 + 1 * p.val = t.val * 5000 + p.val; omega
  · show win0_2.index t (1 : Fin 2) * 256 + 1 * q.val = q.val; omega

/-- An index of the output is in point `t`'s block iff each coordinate is in the block's range on its axis. -/
theorem mem_block (t : Fin cfg0.N) (i : S100000x256.Idx) :
    i ∈ ((cfg0.win 2).blk t).view.set ↔ ∀ a : Fin 2, win0_2.index t a * S5000x256.size a ≤ (i a).val
      ∧ (i a).val < win0_2.index t a * S5000x256.size a + S5000x256.size a := by
  show i ∈ ((View.whole main_v1).slice (win0_2.rect t)).set ↔ _
  rw [View.set_slice_whole, Rect.mem_set_unit]
  exact Iff.rfl

/-- Row `r` of the output lies in the block of point `r / 5000`: the row blocks tile the array. -/
theorem covered (i : S100000x256.Idx) :
    ∃ t : Fin cfg0.N, (cfg0.win 2).flush t = true ∧ i ∈ ((cfg0.win 2).blk t).view.set := by
  have hN : cfg0.N = 20 := N_0
  have hi0 : (i 0).val < 100000 := (i 0).isLt
  have hi1 : (i 1).val < 256 := (i 1).isLt
  obtain ⟨t, ht⟩ : ∃ t : Fin cfg0.N, t.val = (i 0).val / 5000 := ⟨⟨(i 0).val / 5000, by rw [hN]; omega⟩, rfl⟩
  obtain ⟨-, -, -, -, e4, e5⟩ := block_indices t
  refine ⟨t, flush0_2 t, ?_⟩
  rw [mem_block]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 256 ≤ (i 1).val ∧ (i 1).val < win0_2.index t (1 : Fin 2) * 256 + 256
    omega

/-- After the last point the output array is the product of the arrays the region started from. -/
theorem product_array (c : Dev nD) :
    (dats m 0 c).arrAt 2 cfg0.N = product (V m c main_arg0) (V m c main_v0) :=
  (dats m 0 c).arrAt_eq_of_cover 2 _ (fun t _ => flushed_eq m c t) covered

/-- The weight matrix the region starts from: the host line before it laid the two weight arguments side by side. -/
theorem weights_entry (c : Dev nD) :
    (V m c main_v0 : Vec Ideal S128x256 .f32)
      = concatenate S128x256 1 [⟨S128x128, m ((c : Thread nD τ).loc main_arg1)⟩, ⟨S128x128, m ((c : Thread nD τ).loc main_arg2)⟩]
          concatenates_S128x128_S128x128_S128x256_d1 := by
  show StableHlo.after hostOps0 (fun b => m (c, b)) (Proc.devRef .tc main_v0) = _
  after_results

end Cert.GraphConv

end
-- ==== Proof.Halves.lean ====
/-
  The two column halves of the fused product are the reference's two matrix products.

  The right operand of the fused product is the two 128 × 128 weight matrices side by side: column `q < 128` of
  it is column `q` of the first, column `128 + q` is column `q` of the second. So columns `0 … 127` of the product
  are `∑ k, f (r, k) · ws (k, q)`, the features times the first matrix, and columns `128 … 255` are the features
  times the second — each exactly the sum the reference's `dot_general` is on the extended reals, term by term.
-/
import proofs.«147174_j49357764165671_1_alg».proof.Proof.MatmulBlock
import proofs.«147174_j49357764165671_1_alg».proof.Proof.Gen.ReferenceIdeal.Read
import Idealize.ShloMosaic.Lib.Pipeline.Value

noncomputable section

namespace Cert.GraphConv

open Idealize.ShloMosaic Idealize.ShloMosaic.ValueIdx
open Cert.KernelIdeal

/-- Columns `0 … 127` of the fused product: the features times the first weight matrix. -/
theorem left_half (f : Vec Ideal S100000x128 .f32) (ws wn : Vec Ideal S128x128 .f32)
    (hc : Shape.Concatenates [S128x128, S128x128] S128x256 1) (hs : S100000x256.Slices ![0, 0] S100000x128) :
    extractStridedSlice S100000x128 ![0, 0] (product f (concatenate S128x256 1 [⟨S128x128, ws⟩, ⟨S128x128, wn⟩] hc)) hs
      = Cert.ReferenceIdeal.Read.val_main_v0 (F := Ideal) f ws := by
  funext j
  have hj0 : (j 0).val < 100000 := idx2_lt0 j
  have hj1 : (j 1).val < 128 := idx2_lt1 j
  rw [Cert.ReferenceIdeal.Read.val_main_v0_apply]
  refine (extractStridedSlice_apply ![0, 0] _ hs j
    (ix2 (⟨(j 0).val, hj0⟩ : Fin 100000) (⟨(j 1).val, by omega⟩ : Fin 256)) (fun a => ?_)).trans ?_
  · match a with
    | ⟨0, _⟩ => show (j 0).val = 0 + (j 0).val; omega
    | ⟨1, _⟩ => show (j 1).val = 0 + (j 1).val; omega
  · unfold product
    refine Finset.sum_congr rfl fun k _ => ?_
    refine congrArg₂ (· * ·) (congrArg f ?_) ?_
    · funext a; apply Fin.ext
      match a with
      | ⟨0, _⟩ => rfl
      | ⟨1, _⟩ => rfl
    · refine concatenate_pair_apply_left 1 ws wn hc _ rfl (Cert.ReferenceIdeal.Read.ridx_main_v0 j k) (fun b => ?_)
      match b with
      | ⟨0, _⟩ => rfl
      | ⟨1, _⟩ => rfl

/-- Columns `128 … 255` of the fused product: the features times the second weight matrix. -/
theorem right_half (f : Vec Ideal S100000x128 .f32) (ws wn : Vec Ideal S128x128 .f32)
    (hc : Shape.Concatenates [S128x128, S128x128] S128x256 1) (hs : S100000x256.Slices ![0, 128] S100000x128) :
    extractStridedSlice S100000x128 ![0, 128] (product f (concatenate S128x256 1 [⟨S128x128, ws⟩, ⟨S128x128, wn⟩] hc)) hs
      = Cert.ReferenceIdeal.Read.val_main_v1 (F := Ideal) f wn := by
  funext j
  have hj0 : (j 0).val < 100000 := idx2_lt0 j
  have hj1 : (j 1).val < 128 := idx2_lt1 j
  rw [Cert.ReferenceIdeal.Read.val_main_v1_apply]
  refine (extractStridedSlice_apply ![0, 128] _ hs j
    (ix2 (⟨(j 0).val, hj0⟩ : Fin 100000) (⟨128 + (j 1).val, by omega⟩ : Fin 256)) (fun a => ?_)).trans ?_
  · match a with
    | ⟨0, _⟩ => show (j 0).val = 0 + (j 0).val; omega
    | ⟨1, _⟩ => show 128 + (j 1).val = 128 + (j 1).val; rfl
  · unfold product
    refine Finset.sum_congr rfl fun k _ => ?_
    refine congrArg₂ (· * ·) (congrArg f ?_) ?_
    · funext a; apply Fin.ext
      match a with
      | ⟨0, _⟩ => rfl
      | ⟨1, _⟩ => rfl
    · refine concatenate_pair_apply_right 1 ws wn hc _ rfl rfl (Cert.ReferenceIdeal.Read.ridx_main_v1 j k) (fun b hb => ?_) ?_
      · match b with
        | ⟨0, _⟩ => rfl
        | ⟨1, _⟩ => exact absurd rfl hb
      · show (j 1).val + 128 = 128 + (j 1).val; omega

end Cert.GraphConv

end
-- ==== Proof.Tail.lean ====
/-
  What both programs do with the two matrix products.

  Given the self product `s` and the neighbour product `n` (both 100000 × 128), the source and destination node of
  each of the 1600000 edges: a negative source is counted from the end (100000 is added to it), row `src e` of `n`
  is gathered for every edge `e`, the gathered rows are added into the rows named by `dst` of an array of zeros,
  `s` is added, and the result is clamped below at zero. The two programs print these sixteen host operations and the
  three of the outlined clamp with the same literals, in the same order; `aggregate` names them once, as ONE function
  of (`s`, `n`, `src`, `dst`), so the comparison of the programs never looks inside the gather or the scattered sum.
-/
import proofs.«147174_j49357764165671_1_alg».proof.Proof.Gen.KernelIdeal
import proofs.«147174_j49357764165671_1_alg».proof.Proof.Gen.ReferenceIdeal.Read

noncomputable section

namespace Cert.GraphConv

open Idealize.ShloMosaic
open Cert.KernelIdeal Cert.KernelIdeal.Facts₀

/-- Gather the neighbour product's rows by source node, sum them by destination node from zero, add the self
    product, clamp at zero — over the gather's and the scattered sum's dimension records `g`, `sc`. -/
def aggregate (g : GatherDims S100000x128 S1600000x1 S1600000x128) (sc : ScatterDims S100000x128 S1600000x1 S1600000x128)
    (s n : (⟨S100000x128, .f32⟩ : BufTy).Contents (Elt Ideal)) (src dst : (⟨S1600000, .i32⟩ : BufTy).Contents (Elt Ideal)) :
    (⟨S100000x128, .f32⟩ : BufTy).Contents (Elt Ideal) :=
  maximumf (F := Ideal)
    (addf (F := Ideal) s
      (Host.scatterAdd (F := Ideal) sc
        (broadcastInDim S100000x128 ![] bcast_S_S100000x128 (constant (F := Ideal) S_ .f32 0x00000000#32))
        (broadcastInDim S1600000x1 ![0] bcast_S1600000_S1600000x1_0 dst)
        (Host.gather g n
          (broadcastInDim S1600000x1 ![0] bcast_S1600000_S1600000x1_0
            (select (cmpi .slt src (broadcastInDim S1600000 ![] bcast_S_S1600000 (constantI S_ 32 0#32)))
              (addi src (broadcastInDim S1600000 ![] bcast_S_S1600000 (constantI S_ 32 100000#32))) src)))))
    (broadcastInDim S100000x128 ![] bcast_S_S100000x128 (constant (F := Ideal) S_ .f32 0x00000000#32))

/-- The reference's result is `aggregate` of its two matrix products. -/
theorem reference_result (f : (⟨S100000x128, .f32⟩ : BufTy).Contents (Elt Ideal)) (ws wn : (⟨S128x128, .f32⟩ : BufTy).Contents (Elt Ideal))
    (src dst : (⟨S1600000, .i32⟩ : BufTy).Contents (Elt Ideal)) :
    Cert.ReferenceIdeal.Read.val_main_v13 (F := Ideal) f ws wn src dst
      = aggregate Cert.ReferenceIdeal.gather_S100000x128_S1600000x1_S1600000x128_1_0_n_n_0_1_1128
          Cert.ReferenceIdeal.scatter_S100000x128_S1600000x1_S1600000x128_1_0_0_1
          (Cert.ReferenceIdeal.Read.val_main_v0 (F := Ideal) f ws) (Cert.ReferenceIdeal.Read.val_main_v1 (F := Ideal) f wn) src dst := rfl

/-- The two programs' dimension records of the gather and of the scattered sum are the same records. -/
theorem gather_dims_eq : gather_S100000x128_S1600000x1_S1600000x128_1_0_n_n_0_1_1128
    = Cert.ReferenceIdeal.gather_S100000x128_S1600000x1_S1600000x128_1_0_n_n_0_1_1128 := rfl
theorem scatter_dims_eq : scatter_S100000x128_S1600000x1_S1600000x128_1_0_0_1
    = Cert.ReferenceIdeal.scatter_S100000x128_S1600000x1_S1600000x128_1_0_0_1 := rfl

end Cert.GraphConv

end
-- ==== Proof.KernelRun.lean ====
/-
  The kernel program's run, with its result named.

  The region leaves the 100000 × 256 output array at the product of the features with the two weight matrices side by
  side. The host lines after the region cut that array into its column halves — the features times the first weight
  matrix and the features times the second — and apply the gather, the scattered sum, the addition and the clamp to
  them: `aggregate` of the two matrix products, the same term the reference's run ends with.
-/
import proofs.«147174_j49357764165671_1_alg».proof.Proof.ProductArray
import proofs.«147174_j49357764165671_1_alg».proof.Proof.Halves
import proofs.«147174_j49357764165671_1_alg».proof.Proof.Tail

noncomputable section

namespace Cert.GraphConv

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg)

/-- The common result on core `c`: `aggregate` of the features times each weight matrix, as a function of the
    five argument arrays. -/
def result (c : Dev nD) : Buf (Elt Ideal) ((c.tc : Thread nD τ).loc main_v15) :=
  aggregate Cert.ReferenceIdeal.gather_S100000x128_S1600000x1_S1600000x128_1_0_n_n_0_1_1128
    Cert.ReferenceIdeal.scatter_S100000x128_S1600000x1_S1600000x128_1_0_0_1
    (Cert.ReferenceIdeal.Read.val_main_v0 (F := Ideal) (m ((c.tc : Thread nD τ).loc main_arg0)) (m ((c.tc : Thread nD τ).loc main_arg1)))
    (Cert.ReferenceIdeal.Read.val_main_v1 (F := Ideal) (m ((c.tc : Thread nD τ).loc main_arg0)) (m ((c.tc : Thread nD τ).loc main_arg2)))
    (m ((c.tc : Thread nD τ).loc main_arg3)) (m ((c.tc : Thread nD τ).loc main_arg4))

/-- What the host lines after the region leave in the result buffer. -/
theorem tail_result (c : Dev nD) :
    Pipeline.afterTail₀ cfgs (dats m) 0 (V0 m) [hostOps1, hostOps1_1] c main_v15 = result m c := by
  unfold Pipeline.afterTail₀
  generalize hW : Pipeline.withArrays _ c (V0 m c) _ = W
  have hout : (W (Proc.devRef .tc main_v1) : Vec Ideal S100000x256 .f32)
      = product (m ((c.tc : Thread nD τ).loc main_arg0))
          (concatenate S128x256 1 [⟨S128x128, m ((c.tc : Thread nD τ).loc main_arg1)⟩, ⟨S128x128, m ((c.tc : Thread nD τ).loc main_arg2)⟩]
            concatenates_S128x128_S128x128_S128x256_d1) := by
    rw [← hW]
    refine (Pipeline.withArrays_arr spec0 winFacts0.arr_inj c _ _ 2).trans ((product_array m c).trans ?_)
    rw [V_main_arg0, weights_entry]
  have hsrc : W (Proc.devRef .tc main_arg3) = m ((c.tc : Thread nD τ).loc main_arg3) := by
    rw [← hW]
    exact (Pipeline.withArrays_of_ne _ c (V0 m c) _ main_arg3 (by exact (by decide : ∀ w, Pipeline.arrRef spec0 w ≠ main_arg3))).trans
      (V_main_arg3 m c)
  have hdst : W (Proc.devRef .tc main_arg4) = m ((c.tc : Thread nD τ).loc main_arg4) := by
    rw [← hW]
    exact (Pipeline.withArrays_of_ne _ c (V0 m c) _ main_arg4 (by exact (by decide : ∀ w, Pipeline.arrRef spec0 w ≠ main_arg4))).trans
      (V_main_arg4 m c)
  simp only [hostOps1, hostOps1_1, List.flatten_cons, List.flatten_nil, List.append_nil, List.cons_append, List.nil_append]
  after_results
  rw [hout, hsrc, hdst, left_half, right_half, gather_dims_eq, scatter_dims_eq]
  rfl

/-- Every weakly fair execution of the kernel program terminates, with the result buffer at `result` and the five
    argument arrays as launched. -/
theorem run : θ_run defs (onTc (τ := τ) (main (F := Ideal))) ⟨m, fun _ => 0, ρ⟩ fun r => ∀ c : Dev nD,
      r.2.mem ((c.tc : Thread nD τ).loc main_v15) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v15 (Pipeline.mem_restRefs_of main_v15 (by decide) (by decide))).trans (tail_result m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.GraphConv

end
-- ==== Proof.lean ====
/-
  A graph-convolution layer: `relu (features · w_s + Σ_{e : dst e = v} (features · w_n)[src e])` over 100000 nodes,
  128 features and 1600000 edges.

  The kernel program lays the two 128 × 128 weight matrices side by side, multiplies the features by that 128 × 256
  matrix in ONE tiled product (20 row blocks of 5000, operands rounded to bf16 on the way in), and cuts the result into
  its two column halves; the reference multiplies the features by each weight matrix separately. On the extended reals
  the rounding is the identity and both products are plain sums over the 128 contracted columns, and a column of the
  side-by-side matrix is a column of one of the two weight matrices: the halves of the one product ARE the two products,
  entry by entry, with no algebra beyond renaming the summand — in particular no use of the inputs' finiteness. From
  there both programs apply the same gather, scattered sum, addition and clamp, so they end with the same array.

  The frames of the two kernel programs are the generated frame certificates; the reference's is its generated run.
  The idealization rewrote nothing, so there is nothing to preserve.
-/
import proofs.«147174_j49357764165671_1_alg».proof.Defs
import proofs.«147174_j49357764165671_1_alg».proof.Proof.Gen.Kernel
import proofs.«147174_j49357764165671_1_alg».proof.Proof.Gen.Kernel.Frame
import proofs.«147174_j49357764165671_1_alg».proof.Proof.Gen.KernelIdeal
import proofs.«147174_j49357764165671_1_alg».proof.Proof.Gen.KernelIdeal.Frame
import proofs.«147174_j49357764165671_1_alg».proof.Proof.Gen.ReferenceIdeal
import proofs.«147174_j49357764165671_1_alg».proof.Proof.Gen.ReferenceIdeal.Run
import proofs.«147174_j49357764165671_1_alg».proof.Proof.Gen.ReferenceIdeal.Read
import proofs.«147174_j49357764165671_1_alg».proof.Proof.Gen.Pre_finite_inputs
import proofs.«147174_j49357764165671_1_alg».proof.Proof.KernelRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both programs end with `aggregate` of the features times each weight matrix: the kernel program because the
    halves of its one product are those two products, the reference because that is what it computes. -/
theorem algebraic : Cert.algebraic_KernelIdeal_ReferenceIdeal := by
  intro m ρ m' ρ' _ hagree
  refine ⟨fun c => Cert.GraphConv.result m c, Cert.GraphConv.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  rw [Cert.ReferenceIdeal.Read.val_main_v13_eq, Cert.GraphConv.reference_result, a0, a1, a2, a3, a4]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
